-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24448x128 : Shape := ⟨2, ![24448, 128]⟩
abbrev S64 : Shape := ⟨1, ![64]⟩
abbrev S_ : Shape := ⟨0, ![]⟩

class Facts : Prop where
  bcast_S_S24448x128 : S_.BroadcastsInDim S24448x128 (![] : Fin 0 → Fin S24448x128.rank)
  reducesTo_S24448x128_S_d0_1 : S24448x128.ReducesTo [0, 1] S_
  h_S_ : 0 < S_.numel

variable [Facts]

def fn {F : FTy → Type} [FloatOps F] (main_arg0 : FVec F S24448x128 .f32) (main_arg1 : IVec S64 32) : IVec S_ 1 :=
  let main_v0 : FVec F S24448x128 .f32 := Host.absf main_arg0
  let main_cst : FVec F S_ .f32 := constant S_ .f32 0x7F800000#32
  let main_v1 : FVec F S24448x128 .f32 := broadcastInDim S24448x128 ![] bcast_S_S24448x128 main_cst
  let main_v2 : IVec S24448x128 1 := cmpf .olt main_v0 main_v1
  let main_c : IVec S_ 1 := constantI S_ 1 1#1
  let main_v3 : IVec S_ 1 := (fun x v => Host.reduce IntOp.andi x v reducesTo_S24448x128_S_d0_1 h_S_) main_v2 main_c
  main_v3
-- ==== Kernel.lean ====
abbrev S24448x128 : Shape := ⟨2, ![24448, 128]⟩
abbrev S64 : Shape := ⟨1, ![64]⟩
abbrev S_ : Shape := ⟨0, ![]⟩
abbrev S1 : Shape := ⟨1, ![1]⟩
abbrev S63 : Shape := ⟨1, ![63]⟩
abbrev S508 : Shape := ⟨1, ![508]⟩
abbrev S1x508 : Shape := ⟨2, ![1, 508]⟩
abbrev S64x1 : Shape := ⟨2, ![64, 1]⟩
abbrev S64x508 : Shape := ⟨2, ![64, 508]⟩
abbrev S64x508x1 : Shape := ⟨3, ![64, 508, 1]⟩
abbrev S64x508x128 : Shape := ⟨3, ![64, 508, 128]⟩
abbrev S64x4x508x508 : Shape := ⟨4, ![64, 4, 508, 508]⟩
abbrev S1x508x128 : Shape := ⟨3, ![1, 508, 128]⟩
abbrev S1x4x508x508 : Shape := ⟨4, ![1, 4, 508, 508]⟩
abbrev S508x128 : Shape := ⟨2, ![508, 128]⟩
abbrev S128x508 : Shape := ⟨2, ![128, 508]⟩
abbrev S508x508 : Shape := ⟨2, ![508, 508]⟩
abbrev S1x508x508 : Shape := ⟨3, ![1, 508, 508]⟩
abbrev S4x508x508 : Shape := ⟨3, ![4, 508, 508]⟩

abbrev nBuf : Space → Nat
  | .hbm => 39
  | .vmem => 4
  | .smem => 0
  | _ => 0

abbrev bufTy : (tb : Table) → Fin (tcTables nBuf tb) → BufTy
  | .hbm, ⟨0, _⟩ => ⟨S24448x128, .f32⟩
  | .hbm, ⟨1, _⟩ => ⟨S64, .i32⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S64, .i32⟩
  | .hbm, ⟨7, _⟩ => ⟨S63, .i32⟩
  | .hbm, ⟨8, _⟩ => ⟨S64, .i32⟩
  | .hbm, ⟨9, _⟩ => ⟨S508, .i32⟩
  | .hbm, ⟨10, _⟩ => ⟨S1x508, .i32⟩
  | .hbm, ⟨11, _⟩ => ⟨S64x1, .i32⟩
  | .hbm, ⟨12, _⟩ => ⟨S64x508, .i32⟩
  | .hbm, ⟨13, _⟩ => ⟨S64x508, .i32⟩
  | .hbm, ⟨14, _⟩ => ⟨S64x508, .i1⟩
  | .hbm, ⟨15, _⟩ => ⟨S64x1, .i32⟩
  | .hbm, ⟨16, _⟩ => ⟨S1x508, .i32⟩
  | .hbm, ⟨17, _⟩ => ⟨S64x508, .i32⟩
  | .hbm, ⟨18, _⟩ => ⟨S64x508, .i32⟩
  | .hbm, ⟨19, _⟩ => ⟨S64x508, .i32⟩
  | .hbm, ⟨20, _⟩ => ⟨S_, .i32⟩
  | .hbm, ⟨21, _⟩ => ⟨S_, .i32⟩
  | .hbm, ⟨22, _⟩ => ⟨S64x508, .i32⟩
  | .hbm, ⟨23, _⟩ => ⟨S64x508, .i32⟩
  | .hbm, ⟨24, _⟩ => ⟨S_, .i32⟩
  | .hbm, ⟨25, _⟩ => ⟨S64x508, .i32⟩
  | .hbm, ⟨26, _⟩ => ⟨S64x508, .i1⟩
  | .hbm, ⟨27, _⟩ => ⟨S_, .i32⟩
  | .hbm, ⟨28, _⟩ => ⟨S64x508, .i32⟩
  | .hbm, ⟨29, _⟩ => ⟨S64x508, .i32⟩
  | .hbm, ⟨30, _⟩ => ⟨S64x508, .i32⟩
  | .hbm, ⟨31, _⟩ => ⟨S64x508x1, .i32⟩
  | .hbm, ⟨32, _⟩ => ⟨S64x508x128, .f32⟩
  | .hbm, ⟨33, _⟩ => ⟨S64x508x1, .i1⟩
  | .hbm, ⟨34, _⟩ => ⟨S64x508x1, .f32⟩
  | .hbm, ⟨35, _⟩ => ⟨S64x508x128, .f32⟩
  | .hbm, ⟨36, _⟩ => ⟨S64x508x128, .f32⟩
  | .hbm, ⟨37, _⟩ => ⟨S64x508x128, .bf16⟩
  | .hbm, ⟨38, _⟩ => ⟨S64x4x508x508, .f32⟩
  | .local _ .vmem, ⟨0, _⟩ => ⟨S1x508x128, .bf16⟩
  | .local _ .vmem, ⟨1, _⟩ => ⟨S1x508x128, .bf16⟩
  | .local _ .vmem, ⟨2, _⟩ => ⟨S1x4x508x508, .f32⟩
  | .local _ .vmem, ⟨3, _⟩ => ⟨S1x4x508x508, .f32⟩
  | _, _ => ⟨S24448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_call0_c : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x508x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x508x508 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  slices_S64_S63_0 : S64.Slices ![0] S63
  concatenates_S1_S63_S64_d0 : Shape.Concatenates [S1, S63] S64 0
  bcast_S508_S1x508_1 : S508.BroadcastsInDim S1x508 (![1] : Fin 1 → Fin S1x508.rank)
  bcast_S64_S64x1_0 : S64.BroadcastsInDim S64x1 (![0] : Fin 1 → Fin S64x1.rank)
  bcast_S1x508_S64x508_0_1 : S1x508.BroadcastsInDim S64x508 (![0, 1] : Fin 2 → Fin S64x508.rank)
  bcast_S64x1_S64x508_0_1 : S64x1.BroadcastsInDim S64x508 (![0, 1] : Fin 2 → Fin S64x508.rank)
  bcast_S_S64x508 : S_.BroadcastsInDim S64x508 (![] : Fin 0 → Fin S64x508.rank)
  bcast_S64x508_S64x508x1_0_1 : S64x508.BroadcastsInDim S64x508x1 (![0, 1] : Fin 2 → Fin S64x508x1.rank)
  bcast_S64x508x1_S64x508x128_0_1_2 : S64x508x1.BroadcastsInDim S64x508x128 (![0, 1, 2] : Fin 3 → Fin S64x508x128.rank)
  bitsLt_bf16_f32 : FTy.bits .bf16 < FTy.bits .f32
  inb_S1x508x128_S1x508x128_0_0_0 : ∀ a, (![0, 0, 0] : Fin 3 → Nat) a + S1x508x128.size a ≤ S1x508x128.size a
  h_S1x508x128 : 0 < S1x508x128.numel
  shapeCasts_S1x508x128_S508x128 : S1x508x128.ShapeCasts S508x128
  transposes_S508x128_p1_0_S128x508 : S508x128.Transposes [1, 0] S128x508
  shapeCasts_S508x508_S1x508x508 : S508x508.ShapeCasts S1x508x508
  shapeCasts_S1x508x508_S1x508x508 : S1x508x508.ShapeCasts S1x508x508
  broadcasts_S1x508x508_S4x508x508 : S1x508x508.Broadcasts S4x508x508
  inb_S1x4x508x508_S1x4x508x508_0_0_0_0 : ∀ a, (![0, 0, 0, 0] : Fin 4 → Nat) a + S1x4x508x508.size a ≤ S1x4x508x508.size a
  h_S1x4x508x508 : 0 < S1x4x508x508.numel
  shapeCasts_S1x4x508x508_S4x508x508 : S1x4x508x508.ShapeCasts S4x508x508
  shapeCasts_S4x508x508_S1x4x508x508 : S4x508x508.ShapeCasts S1x4x508x508
  gather_S24448x128_S64x508x1_S64x508x128_2_0_n_n_0_2_1128_wf : GatherDims.WF S24448x128 S64x508x1 S64x508x128 [2] [0] [] [0] [] 2 ![1, 128]
  dot_S508x128_S128x508_S508x508_1_0_0_1_n_n_wf : DotDims.WF S508x128 S128x508 S508x508 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x508x128.size a ≤ S64x508x128.size a
  hwx0_0 : ∀ i : grid0.Coords, EltTy.bits .bf16 = 32 ∨ (Rect.block (s := S64x508x128) S1x508x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x508x508.size a ≤ S64x4x508x508.size a
  hwx0_1 : ∀ i : grid0.Coords, EltTy.bits .f32 = 32 ∨ (Rect.block (s := S64x4x508x508) S1x4x508x508.size (cc0_transform_1 i) (hinb0_1 i)).WholeWords (EltTy.packing .f32)

variable [Facts₀]

def gather_S24448x128_S64x508x1_S64x508x128_2_0_n_n_0_2_1128 : GatherDims S24448x128 S64x508x1 S64x508x128 where
  offsetDims := [2]
  collapsedSliceDims := [0]
  operandBatchingDims := []
  startIndicesBatchingDims := []
  startIndexMap := [0]
  indexVectorDim := 2
  sliceSizes := ![1, 128]
  wf := gather_S24448x128_S64x508x1_S64x508x128_2_0_n_n_0_2_1128_wf
def dot_S508x128_S128x508_S508x508_1_0_0_1_n_n : DotDims S508x128 S128x508 S508x508 where
  lhsContracting := [1]
  rhsContracting := [0]
  lhsNonContracting := [0]
  rhsNonContracting := [1]
  lhsBatch := []
  rhsBatch := []
  wf := dot_S508x128_S128x508_S508x508_1_0_0_1_n_n_wf

abbrev win0_0 : Pipeline.Window sig grid0 :=
  Pipeline.Window.ofSpec (Memref.whole main_v27) S1x508x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x4x508x508.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S24448x128 : Shape := ⟨2, ![24448, 128]⟩
abbrev S64 : Shape := ⟨1, ![64]⟩
abbrev S_ : Shape := ⟨0, ![]⟩
abbrev S1 : Shape := ⟨1, ![1]⟩
abbrev S63 : Shape := ⟨1, ![63]⟩
abbrev S508 : Shape := ⟨1, ![508]⟩
abbrev S1x508 : Shape := ⟨2, ![1, 508]⟩
abbrev S64x1 : Shape := ⟨2, ![64, 1]⟩
abbrev S64x508 : Shape := ⟨2, ![64, 508]⟩
abbrev S64x508x1 : Shape := ⟨3, ![64, 508, 1]⟩
abbrev S64x508x128 : Shape := ⟨3, ![64, 508, 128]⟩
abbrev S64x508x508 : Shape := ⟨3, ![64, 508, 508]⟩
abbrev S64x1x508x508 : Shape := ⟨4, ![64, 1, 508, 508]⟩
abbrev S64x4x508x508 : Shape := ⟨4, ![64, 4, 508, 508]⟩

abbrev nBuf : Space → Nat
  | .hbm => 40
  | .vmem => 0
  | .smem => 0
  | _ => 0

abbrev bufTy : (tb : Table) → Fin (tcTables nBuf tb) → BufTy
  | .hbm, ⟨0, _⟩ => ⟨S24448x128, .f32⟩
  | .hbm, ⟨1, _⟩ => ⟨S64, .i32⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S64, .i32⟩
  | .hbm, ⟨7, _⟩ => ⟨S63, .i32⟩
  | .hbm, ⟨8, _⟩ => ⟨S64, .i32⟩
  | .hbm, ⟨9, _⟩ => ⟨S508, .i32⟩
  | .hbm, ⟨10, _⟩ => ⟨S1x508, .i32⟩
  | .hbm, ⟨11, _⟩ => ⟨S64x1, .i32⟩
  | .hbm, ⟨12, _⟩ => ⟨S64x508, .i32⟩
  | .hbm, ⟨13, _⟩ => ⟨S64x508, .i32⟩
  | .hbm, ⟨14, _⟩ => ⟨S64x508, .i1⟩
  | .hbm, ⟨15, _⟩ => ⟨S64x1, .i32⟩
  | .hbm, ⟨16, _⟩ => ⟨S1x508, .i32⟩
  | .hbm, ⟨17, _⟩ => ⟨S64x508, .i32⟩
  | .hbm, ⟨18, _⟩ => ⟨S64x508, .i32⟩
  | .hbm, ⟨19, _⟩ => ⟨S64x508, .i32⟩
  | .hbm, ⟨20, _⟩ => ⟨S_, .i32⟩
  | .hbm, ⟨21, _⟩ => ⟨S_, .i32⟩
  | .hbm, ⟨22, _⟩ => ⟨S64x508, .i32⟩
  | .hbm, ⟨23, _⟩ => ⟨S64x508, .i32⟩
  | .hbm, ⟨24, _⟩ => ⟨S_, .i32⟩
  | .hbm, ⟨25, _⟩ => ⟨S64x508, .i32⟩
  | .hbm, ⟨26, _⟩ => ⟨S64x508, .i1⟩
  | .hbm, ⟨27, _⟩ => ⟨S_, .i32⟩
  | .hbm, ⟨28, _⟩ => ⟨S64x508, .i32⟩
  | .hbm, ⟨29, _⟩ => ⟨S64x508, .i32⟩
  | .hbm, ⟨30, _⟩ => ⟨S64x508, .i32⟩
  | .hbm, ⟨31, _⟩ => ⟨S64x508x1, .i32⟩
  | .hbm, ⟨32, _⟩ => ⟨S64x508x128, .f32⟩
  | .hbm, ⟨33, _⟩ => ⟨S64x508x1, .i1⟩
  | .hbm, ⟨34, _⟩ => ⟨S64x508x1, .f32⟩
  | .hbm, ⟨35, _⟩ => ⟨S64x508x128, .f32⟩
  | .hbm, ⟨36, _⟩ => ⟨S64x508x128, .f32⟩
  | .hbm, ⟨37, _⟩ => ⟨S64x508x508, .f32⟩
  | .hbm, ⟨38, _⟩ => ⟨S64x1x508x508, .f32⟩
  | .hbm, ⟨39, _⟩ => ⟨S64x4x508x508, .f32⟩
  | _, _ => ⟨S24448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_call0_c : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  slices_S64_S63_0 : S64.Slices ![0] S63
  concatenates_S1_S63_S64_d0 : Shape.Concatenates [S1, S63] S64 0
  bcast_S508_S1x508_1 : S508.BroadcastsInDim S1x508 (![1] : Fin 1 → Fin S1x508.rank)
  bcast_S64_S64x1_0 : S64.BroadcastsInDim S64x1 (![0] : Fin 1 → Fin S64x1.rank)
  bcast_S1x508_S64x508_0_1 : S1x508.BroadcastsInDim S64x508 (![0, 1] : Fin 2 → Fin S64x508.rank)
  bcast_S64x1_S64x508_0_1 : S64x1.BroadcastsInDim S64x508 (![0, 1] : Fin 2 → Fin S64x508.rank)
  bcast_S_S64x508 : S_.BroadcastsInDim S64x508 (![] : Fin 0 → Fin S64x508.rank)
  bcast_S64x508_S64x508x1_0_1 : S64x508.BroadcastsInDim S64x508x1 (![0, 1] : Fin 2 → Fin S64x508x1.rank)
  bcast_S64x508x1_S64x508x128_0_1_2 : S64x508x1.BroadcastsInDim S64x508x128 (![0, 1, 2] : Fin 3 → Fin S64x508x128.rank)
  bcast_S64x508x508_S64x1x508x508_0_2_3 : S64x508x508.BroadcastsInDim S64x1x508x508 (![0, 2, 3] : Fin 3 → Fin S64x1x508x508.rank)
  bcast_S64x1x508x508_S64x4x508x508_0_1_2_3 : S64x1x508x508.BroadcastsInDim S64x4x508x508 (![0, 1, 2, 3] : Fin 4 → Fin S64x4x508x508.rank)
  gather_S24448x128_S64x508x1_S64x508x128_2_0_n_n_0_2_1128_wf : GatherDims.WF S24448x128 S64x508x1 S64x508x128 [2] [0] [] [0] [] 2 ![1, 128]
  dot_S64x508x128_S64x508x128_S64x508x508_2_2_1_1_0_0_wf : DotDims.WF S64x508x128 S64x508x128 S64x508x508 [2] [2] [1] [1] [0] [0]

variable [Facts₀]

def gather_S24448x128_S64x508x1_S64x508x128_2_0_n_n_0_2_1128 : GatherDims S24448x128 S64x508x1 S64x508x128 where
  offsetDims := [2]
  collapsedSliceDims := [0]
  operandBatchingDims := []
  startIndicesBatchingDims := []
  startIndexMap := [0]
  indexVectorDim := 2
  sliceSizes := ![1, 128]
  wf := gather_S24448x128_S64x508x1_S64x508x128_2_0_n_n_0_2_1128_wf
def dot_S64x508x128_S64x508x128_S64x508x508_2_2_1_1_0_0 : DotDims S64x508x128 S64x508x128 S64x508x508 where
  lhsContracting := [2]
  rhsContracting := [2]
  lhsNonContracting := [1]
  rhsNonContracting := [1]
  lhsBatch := [0]
  rhsBatch := [0]
  wf := dot_S64x508x128_S64x508x128_S64x508x508_2_2_1_1_0_0_wf

class Facts : Prop extends Facts₀ where

variable [Facts]
-- ==== Proof.LibTypedRef.lean ====
/-
  A typed reference carries contents to its buffer's own type and back along the equation between the two types; there and
  back is the identity. (The operations of an outlined function are stated at the types of its values and moved to the
  buffers' types this way, so a value read back through several of them is wrapped once per operation; this removes
  every matched pair.) For any signature, buffer type and element values.
-/
import Idealize.ShloMosaic.Lib.StableHlo

namespace Cert.LibTypedRef

open Idealize.ShloMosaic Idealize.ShloMosaic.StableHlo

variable {sig : RefSig} {Val : EltTy → Type} {T : BufTy}

/-- Contents carried to a typed reference's buffer and back are unchanged. -/
theorem ofBuf_toBuf (x : TRef sig T) (v : T.Contents Val) : x.ofBuf (x.toBuf v) = v := by
  obtain ⟨r, h, hd, hu⟩ := x
  subst h
  rfl

end Cert.LibTypedRef
-- ==== Proof.PaddedNodes.lean ====
/-
  What the kernel's region finds in its input array. Before the region @main builds the zero-padded embeddings of every
  graph from the two arguments and converts them to the kernel's input format; the region's input array is that
  conversion of `padded` of the arguments as launched.
-/
import proofs.«168018_j58299886076485_1_alg».proof.Proof.Gen.KernelIdeal.Frame
import proofs.«168018_j58299886076485_1_alg».proof.Proof.LibTypedRef
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The padded node embeddings `%26` as ONE function of the two arguments, the embeddings `x` of all nodes and the
    graphs' node counts `cnt`. Graph `b`'s rows start at the sum of the counts before it (a running sum, shifted by
    one); position `p` of graph `b` is valid when `p < cnt b`; a valid position reads row `offset b + p` of `x`, an
    invalid one row 0, and the row is multiplied by the mask (one where valid, zero elsewhere). -/
def padded (x : (⟨S24448x128, .f32⟩ : BufTy).Contents (Elt F)) (cnt : (⟨S64, .i32⟩ : BufTy).Contents (Elt F)) :
    (⟨S64x508x128, .f32⟩ : BufTy).Contents (Elt F) :=
  have zero : (⟨S_, .i32⟩ : BufTy).Contents (Elt F) := constantI S_ 32 0#32
  have csum : (⟨S64, .i32⟩ : BufTy).Contents (Elt F) :=
    Host.reduceWindow IntOp.addi ![64] ![1] ![63] ![0] cnt (broadcastInDim S_ ![] bcast_S_S_ zero) reduceWindows_S64_S64_w64s1p63_0 h_S_
  have offs : (⟨S64, .i32⟩ : BufTy).Contents (Elt F) :=
    concatenate S64 0 [⟨S1, broadcastInDim S1 ![] bcast_S_S1 zero⟩, ⟨S63, extractStridedSlice S63 ![0] csum slices_S64_S63_0⟩] concatenates_S1_S63_S64_d0
  have pos : (⟨S64x508, .i32⟩ : BufTy).Contents (Elt F) :=
    broadcastInDim S64x508 ![0, 1] bcast_S1x508_S64x508_0_1 (broadcastInDim S1x508 ![1] bcast_S508_S1x508_1 (iotaInDim S508 32 0))
  have valid : (⟨S64x508, .i1⟩ : BufTy).Contents (Elt F) :=
    cmpi .slt pos (broadcastInDim S64x508 ![0, 1] bcast_S64x1_S64x508_0_1 (broadcastInDim S64x1 ![0] bcast_S64_S64x1_0 cnt))
  have row : (⟨S64x508, .i32⟩ : BufTy).Contents (Elt F) :=
    addi (broadcastInDim S64x508 ![0, 1] bcast_S64x1_S64x508_0_1 (broadcastInDim S64x1 ![0] bcast_S64_S64x1_0 offs)) pos
  have idx : (⟨S64x508, .i32⟩ : BufTy).Contents (Elt F) :=
    select valid row (broadcastInDim S64x508 ![] bcast_S_S64x508 (id zero))
  have idx' : (⟨S64x508, .i32⟩ : BufTy).Contents (Elt F) :=
    select (cmpi .slt idx (broadcastInDim S64x508 ![] bcast_S_S64x508 zero))
      (addi idx (broadcastInDim S64x508 ![] bcast_S_S64x508 (constantI S_ 32 24448#32))) idx
  mulf (Host.gather gather_S24448x128_S64x508x1_S64x508x128_2_0_n_n_0_2_1128 x (broadcastInDim S64x508x1 ![0, 1] bcast_S64x508_S64x508x1_0_1 idx'))
    (broadcastInDim S64x508x128 ![0, 1, 2] bcast_S64x508x1_S64x508x128_0_1_2
      (uitofp .f32 (broadcastInDim S64x508x1 ![0, 1] bcast_S64x508_S64x508x1_0_1 valid)))

variable (m : (ℓ : Loc nD τ sig) → Buf (Elt F) ℓ)

set_option maxRecDepth 8192 in
/-- The region's input array `%27`: the padded embeddings of the launched arguments, converted to bf16. -/
theorem V_input (c : Dev nD) :
    (V m c main_v27 : (⟨S64x508x128, .bf16⟩ : BufTy).Contents (Elt F))
      = truncf .bf16 (padded (m ((c : Thread nD τ).loc main_arg0)) (m ((c : Thread nD τ).loc main_arg1))) bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [Cert.LibTypedRef.ofBuf_toBuf]
  rfl

end Cert.KernelIdeal.Hand

end
-- ==== Proof.LibPlainMatmul.lean ====
/-
  A matrix product read at an index given by coordinates, at the ideal values, for any extents and element formats:
  for the plain dimension numbers — an `M × K` left operand and a `K × N` right operand contracted over the left's
  columns and the right's rows, no batch axis — the product accumulated into zero is, at `(i, j)`,
  the sum over `k` of `l (i, k) · r (k, j)`. The sum over the contraction shape's one-coordinate indices is
  re-indexed over `Fin K`.
-/
import Idealize.ShloMosaic.Lib.ValueIdx
import Idealize.ShloMosaic.PureOps.Ideal.Laws

namespace Cert.LibPlainMatmul

open Idealize.ShloMosaic Idealize.ShloMosaic.ValueIdx

/-- The product of an `M × K` and a `K × N` matrix into a zero accumulator, read at `(i, j)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        split
        · exact absurd ‹_› List.not_mem_nil
        · split
          · rfl
          · exact absurd (List.mem_singleton.mpr rfl) ‹_›)
  rw [el, er]

end Cert.LibPlainMatmul
-- ==== Proof.BodyLogits.lean ====
/-
  What the kernel body stores, read at an index. The body loads one graph's padded embeddings as a `[1, 508, 128]` block
  `x`, drops the unit axis, multiplies the `508 × 128` matrix by its own transpose into a zero accumulator, and lays the
  `508 × 508` product out four times along a new axis. So the stored block at `(0, v, n, m)` is the inner product of rows
  `n` and `m` of `x`, whatever the view `v`.
-/
import proofs.«168018_j58299886076485_1_alg».proof.Proof.Gen.KernelIdeal.Skeleton
import proofs.«168018_j58299886076485_1_alg».proof.Proof.LibPlainMatmul
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The stored block at `(0, v, n, m)`: the sum over the 128 features of the products of rows `n` and `m`. -/
theorem pay_apply (x : Vec Ideal S1x508x128 .bf16) (v : Fin 4) (n m : Fin 508) :
    k0_pay1 (F := Ideal) x (ix4 (0 : Fin 1) v n m) = ∑ d : Fin 128, x (ix3 (0 : Fin 1) n d) * x (ix3 (0 : Fin 1) m d) := by
  unfold k0_pay1
  -- the outer cast adds the unit axis in front of the four views
  refine (shapeCast_abc_1abc_apply _ _ (0 : Fin 1) v n m).trans ?_
  -- the broadcast copies the one `[1, 508, 508]` slab to every view
  refine (broadcastTo_apply _ _ (ix3 v n m) (ix3 (0 : Fin 1) n m) (fun a => by
    match a with
    | ⟨0, _⟩ => rfl
    | ⟨1, _⟩ => rfl
    | ⟨2, _⟩ => rfl)).trans ?_
  rw [shapeCast_self]
  refine (shapeCast_ab_1ab_apply _ _ (0 : Fin 1) n m).trans ?_
  refine (Cert.LibPlainMatmul.matmul_zero_apply dot_S508x128_S128x508_S508x508_1_0_0_1_n_n rfl rfl rfl rfl rfl rfl none _ _ n m).trans ?_
  refine Finset.sum_congr rfl fun d _ => ?_
  refine congrArg₂ (· * ·) (shapeCast_1ab_ab_apply _ _ n d) ?_
  refine (transpose_ix2_apply _ _ d m).trans ?_
  exact shapeCast_1ab_ab_apply _ _ m d

end Cert.KernelIdeal.Body

end
-- ==== Proof.Logits.lean ====
/-
  The function both programs compute. For a batch of 64 graphs, each a `508 × 128` matrix of (zero-padded) node embeddings
  `Z b`, the adjacency logits of graph `b` are the Gram matrix `Z b · (Z b)ᵀ`: entry `(n, m)` is the inner product of rows
  `n` and `m`, a sum of 128 products on the extended reals. The result holds four identical copies ("views") of each
  graph's logits: entry `(b, v, n, m)` does not depend on `v`.
-/
import Idealize.ShloMosaic.Lib.ValueIdx

namespace Cert.Logits

open Idealize.ShloMosaic Idealize.ShloMosaic.ValueIdx

/-- The inner product of rows `n` and `m` of graph `b`'s padded embeddings. -/
noncomputable def gram (Z : (⟨3, ![64, 508, 128]⟩ : Shape).Idx → EReal) (b : Fin 64) (n m : Fin 508) : EReal :=
  ∑ d : Fin 128, Z (ix3 b n d) * Z (ix3 b m d)

/-- Every graph's Gram matrix, copied to each of the four views. -/
noncomputable def views (Z : (⟨3, ![64, 508, 128]⟩ : Shape).Idx → EReal) : (⟨4, ![64, 4, 508, 508]⟩ : Shape).Idx → EReal :=
  fun i => gram Z (i 0) (i 2) (i 3)

theorem views_ix4 (Z : (⟨3, ![64, 508, 128]⟩ : Shape).Idx → EReal) (b : Fin 64) (v : Fin 4) (n m : Fin 508) :
    views Z (ix4 b v n m) = gram Z b n m := rfl

end Cert.Logits
-- ==== Proof.KernelLogits.lean ====
/-
  The kernel's result array at the ideal values. Grid point `t` reads graph `t`'s padded embeddings (slab `t` of the
  region's input array `Z`) and writes back the four copies of that graph's Gram matrix (slab `t` of the result). The 64
  points' blocks tile the result, so after the run the result array is `Logits.views Z`: at `(b, v, n, m)` the inner
  product of rows `n` and `m` of graph `b`.
-/
import proofs.«168018_j58299886076485_1_alg».proof.Proof.Gen.KernelIdeal.Value
import proofs.«168018_j58299886076485_1_alg».proof.Proof.BodyLogits
import proofs.«168018_j58299886076485_1_alg».proof.Proof.Logits
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: point `t` takes slab `t` of the input and of the result, whole on the other axes. -/
theorem idx_facts : ∀ t : Fin cfg0.N, win0_0.index t (0 : Fin 3) = t.val ∧ win0_0.index t (1 : Fin 3) = 0
    ∧ win0_0.index t (2 : Fin 3) = 0 ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- A stored block of a graph's embeddings `x` that are slab `b` of `Z`, read at `y`, is `Logits.views Z` at any index
    of slab `b` with `y`'s row and column. -/
theorem pay_views (x : Vec Ideal S1x508x128 .bf16) (Z : S64x508x128.Idx → EReal) (b : Fin 64)
    (hx : ∀ (n : Fin 508) (d : Fin 128), x (ix3 (0 : Fin 1) n d) = Z (ix3 b n d))
    (y : S1x4x508x508.Idx) (i : S64x4x508x508.Idx)
    (h0 : (i 0).val = b.val) (h2 : (i 2).val = (y 2).val) (h3 : (i 3).val = (y 3).val) :
    k0_pay1 (F := Ideal) x y = Cert.Logits.views Z i := by
  obtain ⟨u, v, n, k, rfl⟩ : ∃ (u : Fin 1) (v : Fin 4) (n k : Fin 508), y = ix4 u v n k := ⟨y 0, y 1, y 2, y 3, eq_ix4 y⟩
  obtain ⟨b', v', n', k', rfl⟩ : ∃ (b' : Fin 64) (v' : Fin 4) (n' k' : Fin 508), i = ix4 b' v' n' k' := ⟨i 0, i 1, i 2, i 3, eq_ix4 i⟩
  obtain rfl : u = 0 := Fin.ext (by omega)
  obtain rfl : b' = b := Fin.ext h0
  obtain rfl : n' = n := Fin.ext h2
  obtain rfl : k' = k := Fin.ext h3
  rw [Cert.KernelIdeal.Body.pay_apply, Cert.Logits.views_ix4]
  unfold Cert.Logits.gram
  exact Finset.sum_congr rfl fun d _ => by rw [hx, hx]

/-- The input window's block at point `t` is slab `t` of the region's input array. -/
theorem iblk_apply (c : Dev nD) (t : Fin cfg0.N) (n : Fin 508) (d : Fin 128) :
    (iblk m c 0 t : Vec Ideal S1x508x128 .bf16) (ix3 (0 : Fin 1) n d)
      = (V m c main_v27 : S64x508x128.Idx → EReal) (ix3 (⟨t.val, by have := t.isLt; have hN : cfg0.N = 64 := N_0; omega⟩ : Fin 64) n d) := by
  obtain ⟨e0, e1, e2, -⟩ := idx_facts t
  unfold iblk
  rw [View.read_apply]
  show V m c main_v27 _ = V m c main_v27 _
  refine congrArg (V m c main_v27) (funext fun a => Fin.ext ?_)
  match a with
  | ⟨0, _⟩ => show win0_0.index t (0 : Fin 3) * 1 + 1 * 0 = t.val; omega
  | ⟨1, _⟩ => show win0_0.index t (1 : Fin 3) * 508 + 1 * n.val = n.val; omega
  | ⟨2, _⟩ => show win0_0.index t (2 : Fin 3) * 128 + 1 * d.val = d.val; omega

/-- WHAT POINT `t` WRITES BACK is block `t` of `Logits.views` of the region's input array. -/
theorem flushed_eq (c : Dev nD) (t : Fin cfg0.N) :
    (dats m 0 c).flushed 1 t = ((cfg0.win 1).blk t).view.read (Elt Ideal) (Cert.Logits.views (V m c main_v27)) := by
  rw [flushed1]
  unfold out0_1
  rw [View.canon_unit_zero hz4]
  simp only [View.ld_unit_zero (S := S1x508x128) hz3]
  obtain ⟨-, -, -, e0, e1, e2, e3⟩ := idx_facts t
  funext j
  show k0_pay1 (F := Ideal) (iblk m c 0 t) j = Cert.Logits.views (V m c main_v27) (((cfg0.win 1).blk t).view.emb j)
  refine pay_views (iblk m c 0 t) (V m c main_v27) ⟨t.val, by have := t.isLt; have hN : cfg0.N = 64 := N_0; omega⟩
    (iblk_apply m c t) j _ ?_ ?_ ?_
  · show win0_1.index t (0 : Fin 4) * 1 + 1 * (j 0).val = t.val
    have hj : (j 0).val < 1 := (j 0).isLt
    omega
  · show win0_1.index t (2 : Fin 4) * 508 + 1 * (j 2).val = (j 2).val
    omega
  · show win0_1.index t (3 : Fin 4) * 508 + 1 * (j 3).val = (j 3).val
    omega

/-- An index of the result is in point `t`'s block iff each coordinate is in the block's range on its axis. -/
theorem mem_blk (t : Fin cfg0.N) (i : S64x4x508x508.Idx) :
    i ∈ ((cfg0.win 1).blk t).view.set ↔ ∀ a : Fin 4, win0_1.index t a * S1x4x508x508.size a ≤ (i a).val ∧ (i a).val < win0_1.index t a * S1x4x508x508.size a + S1x4x508x508.size a := by
  show i ∈ ((View.whole main_v28).slice (win0_1.rect t)).set ↔ _
  rw [View.set_slice_whole, Rect.mem_set_unit]
  exact Iff.rfl

/-- Every index of the result is in the block of the point its leading coordinate names. -/
theorem cover (i : S64x4x508x508.Idx) : ∃ t : Fin cfg0.N, (cfg0.win 1).flush t = true ∧ i ∈ ((cfg0.win 1).blk t).view.set := by
  have hi0 : (i 0).val < 64 := (i 0).isLt
  have hi1 : (i 1).val < 4 := (i 1).isLt
  have hi2 : (i 2).val < 508 := (i 2).isLt
  have hi3 : (i 3).val < 508 := (i 3).isLt
  refine ⟨⟨(i 0).val, by rw [show cfg0.N = 64 from N_0]; exact hi0⟩, flush0_1 _, ?_⟩
  obtain ⟨-, -, -, e0, e1, e2, e3⟩ := idx_facts ⟨(i 0).val, by rw [show cfg0.N = 64 from N_0]; exact hi0⟩
  rw [mem_blk]
  intro a
  match a with
  | ⟨0, _⟩ => show win0_1.index _ (0 : Fin 4) * 1 ≤ (i 0).val ∧ (i 0).val < win0_1.index _ (0 : Fin 4) * 1 + 1; rw [e0]; show (i 0).val * 1 ≤ (i 0).val ∧ (i 0).val < (i 0).val * 1 + 1; omega
  | ⟨1, _⟩ => show win0_1.index _ (1 : Fin 4) * 4 ≤ (i 1).val ∧ (i 1).val < win0_1.index _ (1 : Fin 4) * 4 + 4; rw [e1]; omega
  | ⟨2, _⟩ => show win0_1.index _ (2 : Fin 4) * 508 ≤ (i 2).val ∧ (i 2).val < win0_1.index _ (2 : Fin 4) * 508 + 508; rw [e2]; omega
  | ⟨3, _⟩ => show win0_1.index _ (3 : Fin 4) * 508 ≤ (i 3).val ∧ (i 3).val < win0_1.index _ (3 : Fin 4) * 508 + 508; rw [e3]; omega

/-- THE RESULT ARRAY after the run: `Logits.views` of the region's input array. -/
theorem final (c : Dev nD) : (dats m 0 c).arrAt 1 cfg0.N = Cert.Logits.views (V m c main_v27) :=
  (dats m 0 c).arrAt_eq_of_cover 1 (Cert.Logits.views (V m c main_v27)) (fun t _ => flushed_eq m c t) cover

/-- The kernel's run, read: the result at `Logits.views` of the region's input array, the arguments unchanged. -/
theorem run : θ_run defs (onTc (τ := τ) (main (F := Ideal))) ⟨m, fun _ => 0, ρ⟩ fun r => ∀ c : Dev nD,
      r.2.mem ((c : Thread nD τ).loc main_v28) = Cert.Logits.views (V m c main_v27)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.RefRun.lean ====
/-
  The reference program's run, read back. Its @main is a straight line of 38 host operations once the two outlined
  functions it calls — the running sum of the node counts, and the select that `jnp.where` became — are unfolded at
  their calls: three operations each, over the buffers of the call's record. Every weakly fair execution of it
  terminates, and leaves every TensorCore buffer at the fold of those operations over the launch contents.
-/
import proofs.«168018_j58299886076485_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations up to the padded embeddings `%26`: the offsets of the graphs' rows (a running sum of the counts,
    shifted by one), the validity mask, the row indices, the gather and the masking product. -/
abbrev padOps : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    TRef.nullary main_call0.call0.c (constantI S_ 32 0#32),
    TRef.unary main_call0.call0.c main_call0.call0.v0 (broadcastInDim S_ ![] bcast_S_S_),
    TRef.binary (.of main_arg1) main_call0.call0.v0 main_call0.call0.v1 (fun x v => Host.reduceWindow IntOp.addi ![64] ![1] ![63] ![0] x v reduceWindows_S64_S64_w64s1p63_0 h_S_),
    unary main_v1 main_v2 ((extractStridedSlice S63 ![0] · slices_S64_S63_0) : (⟨S64, .i32⟩ : BufTy).Contents (Elt F) → (⟨S63, .i32⟩ : BufTy).Contents (Elt F)),
    binary main_v0 main_v2 main_v3 ((fun a b => concatenate S64 0 [⟨S1, a⟩, ⟨S63, b⟩] concatenates_S1_S63_S64_d0) : (⟨S1, .i32⟩ : BufTy).Contents (Elt F) → (⟨S63, .i32⟩ : BufTy).Contents (Elt F) → (⟨S64, .i32⟩ : BufTy).Contents (Elt F)),
    nullary main_v4 (iotaInDim S508 32 0),
    unary main_v4 main_v5 (broadcastInDim S1x508 ![1] bcast_S508_S1x508_1 : (⟨S508, .i32⟩ : BufTy).Contents (Elt F) → (⟨S1x508, .i32⟩ : BufTy).Contents (Elt F)),
    unary main_arg1 main_v6 (broadcastInDim S64x1 ![0] bcast_S64_S64x1_0 : (⟨S64, .i32⟩ : BufTy).Contents (Elt F) → (⟨S64x1, .i32⟩ : BufTy).Contents (Elt F)),
    unary main_v5 main_v7 (broadcastInDim S64x508 ![0, 1] bcast_S1x508_S64x508_0_1 : (⟨S1x508, .i32⟩ : BufTy).Contents (Elt F) → (⟨S64x508, .i32⟩ : BufTy).Contents (Elt F)),
    unary main_v6 main_v8 (broadcastInDim S64x508 ![0, 1] bcast_S64x1_S64x508_0_1 : (⟨S64x1, .i32⟩ : BufTy).Contents (Elt F) → (⟨S64x508, .i32⟩ : BufTy).Contents (Elt F)),
    binary main_v7 main_v8 main_v9 (cmpi .slt : (⟨S64x508, .i32⟩ : BufTy).Contents (Elt F) → (⟨S64x508, .i32⟩ : BufTy).Contents (Elt F) → (⟨S64x508, .i1⟩ : BufTy).Contents (Elt F)),
    unary main_v3 main_v10 (broadcastInDim S64x1 ![0] bcast_S64_S64x1_0 : (⟨S64, .i32⟩ : BufTy).Contents (Elt F) → (⟨S64x1, .i32⟩ : BufTy).Contents (Elt F)),
    unary main_v4 main_v11 (broadcastInDim S1x508 ![1] bcast_S508_S1x508_1 : (⟨S508, .i32⟩ : BufTy).Contents (Elt F) → (⟨S1x508, .i32⟩ : BufTy).Contents (Elt F)),
    unary main_v10 main_v12 (broadcastInDim S64x508 ![0, 1] bcast_S64x1_S64x508_0_1 : (⟨S64x1, .i32⟩ : BufTy).Contents (Elt F) → (⟨S64x508, .i32⟩ : BufTy).Contents (Elt F)),
    unary main_v11 main_v13 (broadcastInDim S64x508 ![0, 1] bcast_S1x508_S64x508_0_1 : (⟨S1x508, .i32⟩ : BufTy).Contents (Elt F) → (⟨S64x508, .i32⟩ : BufTy).Contents (Elt F)),
    binary main_v12 main_v13 main_v14 (addi : (⟨S64x508, .i32⟩ : BufTy).Contents (Elt F) → (⟨S64x508, .i32⟩ : BufTy).Contents (Elt F) → (⟨S64x508, .i32⟩ : BufTy).Contents (Elt F)),
    nullary main_c_0 (constantI S_ 32 0#32),
    TRef.unary (.of main_c_0) main_call1.v0 id,
    TRef.unary main_call1.v0 main_call1.v1 (broadcastInDim S64x508 ![] bcast_S_S64x508),
    TRef.ternary (.of main_v9) (.of main_v14) main_call1.v1 main_call1.v2 select,
    nullary main_c_1 (constantI S_ 32 0#32),
    unary main_c_1 main_v16 (broadcastInDim S64x508 ![] bcast_S_S64x508 : (⟨S_, .i32⟩ : BufTy).Contents (Elt F) → (⟨S64x508, .i32⟩ : BufTy).Contents (Elt F)),
    binary main_v15 main_v16 main_v17 (cmpi .slt : (⟨S64x508, .i32⟩ : BufTy).Contents (Elt F) → (⟨S64x508, .i32⟩ : BufTy).Contents (Elt F) → (⟨S64x508, .i1⟩ : BufTy).Contents (Elt F)),
    nullary main_c_2 (constantI S_ 32 24448#32),
    unary main_c_2 main_v18 (broadcastInDim S64x508 ![] bcast_S_S64x508 : (⟨S_, .i32⟩ : BufTy).Contents (Elt F) → (⟨S64x508, .i32⟩ : BufTy).Contents (Elt F)),
    binary main_v15 main_v18 main_v19 (addi : (⟨S64x508, .i32⟩ : BufTy).Contents (Elt F) → (⟨S64x508, .i32⟩ : BufTy).Contents (Elt F) → (⟨S64x508, .i32⟩ : BufTy).Contents (Elt F)),
    ternary main_v17 main_v19 main_v15 main_v20 (select : (⟨S64x508, .i1⟩ : BufTy).Contents (Elt F) → (⟨S64x508, .i32⟩ : BufTy).Contents (Elt F) → (⟨S64x508, .i32⟩ : BufTy).Contents (Elt F) → (⟨S64x508, .i32⟩ : BufTy).Contents (Elt F)),
    unary main_v20 main_v21 (broadcastInDim S64x508x1 ![0, 1] bcast_S64x508_S64x508x1_0_1 : (⟨S64x508, .i32⟩ : BufTy).Contents (Elt F) → (⟨S64x508x1, .i32⟩ : BufTy).Contents (Elt F)),
    binary main_arg0 main_v21 main_v22 ((fun x i => Host.gather gather_S24448x128_S64x508x1_S64x508x128_2_0_n_n_0_2_1128 x i) : (⟨S24448x128, .f32⟩ : BufTy).Contents (Elt F) → (⟨S64x508x1, .i32⟩ : BufTy).Contents (Elt F) → (⟨S64x508x128, .f32⟩ : BufTy).Contents (Elt F)),
    unary main_v9 main_v23 (broadcastInDim S64x508x1 ![0, 1] bcast_S64x508_S64x508x1_0_1 : (⟨S64x508, .i1⟩ : BufTy).Contents (Elt F) → (⟨S64x508x1, .i1⟩ : BufTy).Contents (Elt F)),
    unary main_v23 main_v24 (uitofp .f32 : (⟨S64x508x1, .i1⟩ : BufTy).Contents (Elt F) → (⟨S64x508x1, .f32⟩ : BufTy).Contents (Elt F)),
    unary main_v24 main_v25 (broadcastInDim S64x508x128 ![0, 1, 2] bcast_S64x508x1_S64x508x128_0_1_2 : (⟨S64x508x1, .f32⟩ : BufTy).Contents (Elt F) → (⟨S64x508x128, .f32⟩ : BufTy).Contents (Elt F)),
    binary main_v22 main_v25 main_v26 (mulf : (⟨S64x508x128, .f32⟩ : BufTy).Contents (Elt F) → (⟨S64x508x128, .f32⟩ : BufTy).Contents (Elt F) → (⟨S64x508x128, .f32⟩ : BufTy).Contents (Elt F)) ]

/-- The operations after them: the batched product of the padded embeddings with themselves, and the two broadcasts
    that copy it to the four views. -/
abbrev tailOps : List (HloOp τ sig (Elt F)) :=
  [    binary main_v26 main_v26 main_v27 ((fun l r => Host.dotGeneral dot_S64x508x128_S64x508x128_S64x508x508_2_2_1_1_0_0 none l r) : (⟨S64x508x128, .f32⟩ : BufTy).Contents (Elt F) → (⟨S64x508x128, .f32⟩ : BufTy).Contents (Elt F) → (⟨S64x508x508, .f32⟩ : BufTy).Contents (Elt F)),
    unary main_v27 main_v28 (broadcastInDim S64x1x508x508 ![0, 2, 3] bcast_S64x508x508_S64x1x508x508_0_2_3 : (⟨S64x508x508, .f32⟩ : BufTy).Contents (Elt F) → (⟨S64x1x508x508, .f32⟩ : BufTy).Contents (Elt F)),
    unary main_v28 main_v29 (broadcastInDim S64x4x508x508 ![0, 1, 2, 3] bcast_S64x1x508x508_S64x4x508x508_0_1_2_3 : (⟨S64x1x508x508, .f32⟩ : BufTy).Contents (Elt F) → (⟨S64x4x508x508, .f32⟩ : BufTy).Contents (Elt F)) ]

/-- @main's 38 operations, in order. -/
abbrev ops : List (HloOp τ sig (Elt F)) := padOps ++ tailOps

set_option maxRecDepth 4096 in
/-- @main is that straight line: the functions' definitions unfolded at their calls, both sides are one chain of
    steps once sequencing is reassociated. -/
theorem main_eq (c : Dev nD) : main (F := F) c = seq ops := by
  simp only [main, fn_cumsum.body, fn_cumsum_0.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., binary_bufs_sub .., unary_bufs_sub .., unary_bufs_sub ..⟩

/-- From any memory with zero counters every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibAfterCut.lean ====
/-
  A straight line of host operations may be read back in pieces.

  The buffer contents after a list of operations are a fold of the operations' results over the starting contents, so the
  contents after a concatenation are the contents after the second list from the contents after the first, and any list
  may be cut at any position. Reading one buffer back through a long line composes every stage it depends on into one
  term, every shared stage repeated at each use; cut after a shared stage, the later piece mentions it as one atom.
  For any mesh, signature and element values.
-/
import Idealize.ShloMosaic.Lib.StableHlo.Run

namespace Cert.LibAfterCut

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut at position `n`: its first `n` operations, then the rest. -/
theorem after_take_drop (n : ℕ) (l : List (HloOp τ sig Val)) (V : Valuation τ sig Val) :
    after l V = after (l.drop n) (after (l.take n) V) := by
  rw [← after_append, List.take_append_drop]

end Cert.LibAfterCut
-- ==== Proof.LibBatchedDot.lean ====
/-
  A batched matrix product on the host read at an index given by coordinates, at the ideal values, for any extents and
  element formats: for a stack of `B` left matrices `M × K` and a stack of `B` right matrices `N × K`, paired along the
  leading axis and contracted over the LAST axis of both (each left matrix times the transpose of its right matrix), the
  product at `(b, i, j)` is the sum over `k` of `l (b, i, k) · r (b, j, k)`. The sum over the contraction shape's
  one-coordinate indices is re-indexed over `Fin K`.
-/
import Idealize.ShloMosaic.Lib.ValueIdx
import Idealize.ShloMosaic.PureOps.Ideal.Laws

namespace Cert.LibBatchedDot

open Idealize.ShloMosaic Idealize.ShloMosaic.ValueIdx

/-- The batched product `[B, M, K] · [B, N, K]ᵀ` read at `(b, i, j)`. -/
theorem dotGeneral_apply {B M N K : ℕ} {φ₁ φ₂ : FTy}
    (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (sched : HostSchedule)
    (l : FVec Ideal ⟨3, ![B, M, K]⟩ φ₁) (r : FVec Ideal ⟨3, ![B, N, K]⟩ φ₂)
    (b : Fin B) (i : Fin M) (j : Fin N) :
    FloatOps.dotGeneral D prec sched l r (ix3 b i j) = ∑ k : Fin K, l (ix3 b i k) * r (ix3 b j k) := by
  obtain ⟨lc, rc, ln, rn, lb, rb, wf⟩ := D
  dsimp only at hlc hrc hln hrn hlb hrb
  subst hlc hrc hln hrn hlb hrb
  rw [Ideal.dotGeneral_apply]
  rw [← Equiv.sum_comp (contrEquiv1 (⟨[2], [2], [1], [1], [0], [0], wf⟩ : DotDims ⟨3, ![B, M, K]⟩ ⟨3, ![B, N, K]⟩ ⟨3, ![B, M, N]⟩) K rfl rfl).symm]
  refine Finset.sum_congr rfl fun k _ => ?_
  have hk := contrEquiv1_symm_val (⟨[2], [2], [1], [1], [0], [0], wf⟩ : DotDims ⟨3, ![B, M, K]⟩ ⟨3, ![B, N, K]⟩ ⟨3, ![B, M, N]⟩) K rfl rfl k
  have el : (⟨[2], [2], [1], [1], [0], [0], wf⟩ : DotDims ⟨3, ![B, M, K]⟩ ⟨3, ![B, N, K]⟩ ⟨3, ![B, M, N]⟩).lhsIdx (ix3 b i j)
      ((contrEquiv1 (⟨[2], [2], [1], [1], [0], [0], wf⟩ : DotDims ⟨3, ![B, M, K]⟩ ⟨3, ![B, N, K]⟩ ⟨3, ![B, M, N]⟩) K rfl rfl).symm k) = ix3 b i k :=
    funext fun a => Fin.ext (by
      match a with
      | ⟨0, _⟩ =>
        unfold DotDims.lhsIdx
        split
        · rfl
        · exact absurd (List.mem_singleton.mpr rfl) ‹_›
      | ⟨1, _⟩ =>
        unfold DotDims.lhsIdx
        split
        · exact absurd (Fin.val_eq_of_eq (List.mem_singleton.mp ‹_›)) Nat.one_ne_zero
        · split
          · rfl
          · exact absurd (List.mem_singleton.mpr rfl) ‹_›
      | ⟨2, _⟩ => exact (DotDims.lhsIdx_val_of_single _ rfl _ _).trans hk)
  have er : (⟨[2], [2], [1], [1], [0], [0], wf⟩ : DotDims ⟨3, ![B, M, K]⟩ ⟨3, ![B, N, K]⟩ ⟨3, ![B, M, N]⟩).rhsIdx (ix3 b i j)
      ((contrEquiv1 (⟨[2], [2], [1], [1], [0], [0], wf⟩ : DotDims ⟨3, ![B, M, K]⟩ ⟨3, ![B, N, K]⟩ ⟨3, ![B, M, N]⟩) K rfl rfl).symm k) = ix3 b j k :=
    funext fun a => Fin.ext (by
      match a with
      | ⟨0, _⟩ =>
        unfold DotDims.rhsIdx
        split
        · rfl
        · exact absurd (List.mem_singleton.mpr rfl) ‹_›
      | ⟨1, _⟩ =>
        unfold DotDims.rhsIdx
        split
        · exact absurd (Fin.val_eq_of_eq (List.mem_singleton.mp ‹_›)) Nat.one_ne_zero
        · split
          · rfl
          · exact absurd (List.mem_singleton.mpr rfl) ‹_›
      | ⟨2, _⟩ => exact (DotDims.rhsIdx_val_of_single _ rfl _ _).trans hk)
  rw [el, er]

end Cert.LibBatchedDot
-- ==== Proof.RefLogits.lean ====
/-
  The reference's result at the ideal values. Its first 35 operations build the padded embeddings `padded x cnt` of the two
  arguments; the batched product multiplies each graph's `508 × 128` matrix by its own transpose; two broadcasts insert the
  axis of views and copy the product to each of the four. So the result is `Logits.views (padded x cnt)`: at
  `(b, v, n, m)` the inner product of rows `n` and `m` of graph `b`.
-/
import proofs.«168018_j58299886076485_1_alg».proof.Proof.RefRun
import proofs.«168018_j58299886076485_1_alg».proof.Proof.LibTypedRef
import proofs.«168018_j58299886076485_1_alg».proof.Proof.LibAfterCut
import proofs.«168018_j58299886076485_1_alg».proof.Proof.LibBatchedDot
import proofs.«168018_j58299886076485_1_alg».proof.Proof.Logits
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

section AnyValues
variable {F : FTy → Type} [FloatOps F]

/-- The padded node embeddings `%26` as ONE function of the two arguments, the embeddings `x` of all nodes and the
    graphs' node counts `cnt`. Graph `b`'s rows start at the sum of the counts before it (a running sum, shifted by
    one); position `p` of graph `b` is valid when `p < cnt b`; a valid position reads row `offset b + p` of `x`, an
    invalid one row 0, and the row is multiplied by the mask (one where valid, zero elsewhere). -/
def padded (x : (⟨S24448x128, .f32⟩ : BufTy).Contents (Elt F)) (cnt : (⟨S64, .i32⟩ : BufTy).Contents (Elt F)) :
    (⟨S64x508x128, .f32⟩ : BufTy).Contents (Elt F) :=
  have zero : (⟨S_, .i32⟩ : BufTy).Contents (Elt F) := constantI S_ 32 0#32
  have csum : (⟨S64, .i32⟩ : BufTy).Contents (Elt F) :=
    Host.reduceWindow IntOp.addi ![64] ![1] ![63] ![0] cnt (broadcastInDim S_ ![] bcast_S_S_ zero) reduceWindows_S64_S64_w64s1p63_0 h_S_
  have offs : (⟨S64, .i32⟩ : BufTy).Contents (Elt F) :=
    concatenate S64 0 [⟨S1, broadcastInDim S1 ![] bcast_S_S1 zero⟩, ⟨S63, extractStridedSlice S63 ![0] csum slices_S64_S63_0⟩] concatenates_S1_S63_S64_d0
  have pos : (⟨S64x508, .i32⟩ : BufTy).Contents (Elt F) :=
    broadcastInDim S64x508 ![0, 1] bcast_S1x508_S64x508_0_1 (broadcastInDim S1x508 ![1] bcast_S508_S1x508_1 (iotaInDim S508 32 0))
  have valid : (⟨S64x508, .i1⟩ : BufTy).Contents (Elt F) :=
    cmpi .slt pos (broadcastInDim S64x508 ![0, 1] bcast_S64x1_S64x508_0_1 (broadcastInDim S64x1 ![0] bcast_S64_S64x1_0 cnt))
  have row : (⟨S64x508, .i32⟩ : BufTy).Contents (Elt F) :=
    addi (broadcastInDim S64x508 ![0, 1] bcast_S64x1_S64x508_0_1 (broadcastInDim S64x1 ![0] bcast_S64_S64x1_0 offs)) pos
  have idx : (⟨S64x508, .i32⟩ : BufTy).Contents (Elt F) :=
    select valid row (broadcastInDim S64x508 ![] bcast_S_S64x508 (id zero))
  have idx' : (⟨S64x508, .i32⟩ : BufTy).Contents (Elt F) :=
    select (cmpi .slt idx (broadcastInDim S64x508 ![] bcast_S_S64x508 zero))
      (addi idx (broadcastInDim S64x508 ![] bcast_S_S64x508 (constantI S_ 32 24448#32))) idx
  mulf (Host.gather gather_S24448x128_S64x508x1_S64x508x128_2_0_n_n_0_2_1128 x (broadcastInDim S64x508x1 ![0, 1] bcast_S64x508_S64x508x1_0_1 idx'))
    (broadcastInDim S64x508x128 ![0, 1, 2] bcast_S64x508x1_S64x508x128_0_1_2
      (uitofp .f32 (broadcastInDim S64x508x1 ![0, 1] bcast_S64x508_S64x508x1_0_1 valid)))

set_option maxRecDepth 8192 in
/-- After the first 35 operations `%26` holds the padded embeddings of the two arguments. -/
theorem padOps_v26 (V : Valuation τ sig (Elt F)) :
    (after padOps V (main_v26 : DevRef τ sig) : (⟨S64x508x128, .f32⟩ : BufTy).Contents (Elt F))
      = padded (V (main_arg0 : DevRef τ sig)) (V (main_arg1 : DevRef τ sig)) := by
  after_results_simp
  simp only [Cert.LibTypedRef.ofBuf_toBuf]
  rfl

/-- The last three operations: the result is the two broadcasts of the batched product of `%26` with itself. -/
theorem tailOps_v29 (W : Valuation τ sig (Elt F)) :
    (after tailOps W (main_v29 : DevRef τ sig) : (⟨S64x4x508x508, .f32⟩ : BufTy).Contents (Elt F))
      = broadcastInDim S64x4x508x508 ![0, 1, 2, 3] bcast_S64x1x508x508_S64x4x508x508_0_1_2_3
          (broadcastInDim S64x1x508x508 ![0, 2, 3] bcast_S64x508x508_S64x1x508x508_0_2_3
            (Host.dotGeneral dot_S64x508x128_S64x508x128_S64x508x508_2_2_1_1_0_0 none (W (main_v26 : DevRef τ sig)) (W (main_v26 : DevRef τ sig)))) := by
  after_results

/-- The arguments are written by no operation. -/
theorem ops_arg0 (V : Valuation τ sig (Elt F)) : after ops V (main_arg0 : DevRef τ sig) = V (main_arg0 : DevRef τ sig) := by
  show after (padOps ++ tailOps) V (main_arg0 : DevRef τ sig) = _
  rw [Cert.LibAfterCut.after_append]
  refine (show after tailOps _ (main_arg0 : DevRef τ sig) = after padOps V (main_arg0 : DevRef τ sig) from by after_results_simp).trans ?_
  after_results_simp
theorem ops_arg1 (V : Valuation τ sig (Elt F)) : after ops V (main_arg1 : DevRef τ sig) = V (main_arg1 : DevRef τ sig) := by
  show after (padOps ++ tailOps) V (main_arg1 : DevRef τ sig) = _
  rw [Cert.LibAfterCut.after_append]
  refine (show after tailOps _ (main_arg1 : DevRef τ sig) = after padOps V (main_arg1 : DevRef τ sig) from by after_results_simp).trans ?_
  after_results_simp

end AnyValues

/-- The batched product of a stack of matrices with itself, with the axis of views inserted and copied four times,
    is `Logits.views`. -/
theorem tail_views (Z : FVec Ideal S64x508x128 .f32) :
    (broadcastInDim S64x4x508x508 ![0, 1, 2, 3] bcast_S64x1x508x508_S64x4x508x508_0_1_2_3
      (broadcastInDim S64x1x508x508 ![0, 2, 3] bcast_S64x508x508_S64x1x508x508_0_2_3
        (Host.dotGeneral (F := Ideal) dot_S64x508x128_S64x508x128_S64x508x508_2_2_1_1_0_0 none Z Z)) : S64x4x508x508.Idx → EReal)
      = Cert.Logits.views Z := by
  funext i
  obtain ⟨b, v, n, k, rfl⟩ : ∃ (b : Fin 64) (v : Fin 4) (n k : Fin 508), i = ix4 b v n k := ⟨i 0, i 1, i 2, i 3, eq_ix4 i⟩
  refine (broadcastInDim_apply _ _ _ (ix4 b v n k) (ix4 b (0 : Fin 1) n k) (fun a => by
    match a with
    | ⟨0, _⟩ => rfl
    | ⟨1, _⟩ => rfl
    | ⟨2, _⟩ => rfl
    | ⟨3, _⟩ => rfl)).trans ?_
  refine (broadcastInDim_apply _ _ _ (ix4 b (0 : Fin 1) n k) (ix3 b n k) (fun a => by
    match a with
    | ⟨0, _⟩ => rfl
    | ⟨1, _⟩ => rfl
    | ⟨2, _⟩ => rfl)).trans ?_
  exact Cert.LibBatchedDot.dotGeneral_apply dot_S64x508x128_S64x508x128_S64x508x508_2_2_1_1_0_0 rfl rfl rfl rfl rfl rfl none .single Z Z b n k

/-- The reference's run, read: the result at `Logits.views` of the padded embeddings of the launched arguments, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
        = Cert.Logits.views (padded (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v29).trans (by
      show after (padOps ++ tailOps) (launchContents m c) (main_v29 : DevRef τ sig) = _
      rw [Cert.LibAfterCut.after_append, tailOps_v29, padOps_v26]
      exact tail_views _),
      (h c main_arg0).trans (ops_arg0 _), (h c main_arg1).trans (ops_arg1 _)⟩)
    (run_main m ρ)

end Cert.ReferenceIdeal.Hand

end
-- ==== Proof.lean ====
/-
  Adjacency logits of a batch of ragged graphs: the kernel against its reference, at the ideal values.

  Both programs first build, with the same host operations, the zero-padded node embeddings `Z` of the 64 graphs
  (`[64, 508, 128]`: graph `b`'s rows are gathered from the flat embeddings at the running sum of the node counts, rows past
  the graph's count are multiplied by zero). The kernel converts `Z` to bf16 — the identity on extended reals — and, one
  graph per grid point, multiplies the graph's `508 × 128` matrix by its own transpose into a zero accumulator and writes
  the product to each of four views. The reference takes the batched product of `Z` with itself over the feature axis and
  broadcasts it to the four views. Index by index both results are the same sum of 128 products,
  `∑ d, Z (b, n, d) · Z (b, m, d)` at `(b, v, n, m)` (`Logits.views`), so no algebraic law and no finiteness is needed:
  the shared term `Z` is never opened, only shown to be one function of the arguments in both programs.

  The frames of the two kernel programs are the generated frame certificates; the reference's frame is its run with the
  result forgotten. The idealization rewrote no operation, so its soundness conjunct is `True`.
-/
import proofs.«168018_j58299886076485_1_alg».proof.Defs
import proofs.«168018_j58299886076485_1_alg».proof.Proof.Gen.Kernel
import proofs.«168018_j58299886076485_1_alg».proof.Proof.Gen.Kernel.Skeleton
import proofs.«168018_j58299886076485_1_alg».proof.Proof.Gen.Kernel.Launch
import proofs.«168018_j58299886076485_1_alg».proof.Proof.Gen.Kernel.Points
import proofs.«168018_j58299886076485_1_alg».proof.Proof.Gen.Kernel.Frame
import proofs.«168018_j58299886076485_1_alg».proof.Proof.Gen.KernelIdeal
import proofs.«168018_j58299886076485_1_alg».proof.Proof.Gen.KernelIdeal.Skeleton
import proofs.«168018_j58299886076485_1_alg».proof.Proof.Gen.KernelIdeal.Launch
import proofs.«168018_j58299886076485_1_alg».proof.Proof.Gen.KernelIdeal.Points
import proofs.«168018_j58299886076485_1_alg».proof.Proof.Gen.KernelIdeal.Frame
import proofs.«168018_j58299886076485_1_alg».proof.Proof.Gen.KernelIdeal.Value
import proofs.«168018_j58299886076485_1_alg».proof.Proof.Gen.ReferenceIdeal
import proofs.«168018_j58299886076485_1_alg».proof.Proof.Gen.Pre_finite_inputs
import proofs.«168018_j58299886076485_1_alg».proof.Proof.PaddedNodes
import proofs.«168018_j58299886076485_1_alg».proof.Proof.KernelLogits
import proofs.«168018_j58299886076485_1_alg».proof.Proof.RefLogits
import Idealize.ShloMosaic.Adequacy
import Idealize.ShloMosaic.Init

noncomputable section

namespace Cert.Proof

open Idealize.ShloMosaic Idealize.ShloMosaic.TcCoe Idealize.SL.Sem

/-- The padded embeddings are ONE function of the arguments in both programs: the reference's chain of host operations
    and the kernel's are the same operations over the same shapes, and the kernel's conversion to bf16 is the identity
    on extended reals. -/
theorem padded_agree (x : (⟨Cert.KernelIdeal.S24448x128, .f32⟩ : BufTy).Contents (Elt Ideal))
    (cnt : (⟨Cert.KernelIdeal.S64, .i32⟩ : BufTy).Contents (Elt Ideal)) :
    @Eq ((⟨3, ![64, 508, 128]⟩ : Shape).Idx → EReal) (Cert.ReferenceIdeal.Hand.padded (F := Ideal) x cnt)
      (truncf (F := Ideal) (s := Cert.KernelIdeal.S64x508x128) (φ := .f32) .bf16 (Cert.KernelIdeal.Hand.padded (F := Ideal) x cnt) Cert.KernelIdeal.Gen.bitsLt_bf16_f32) := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Hand.run m ρ)

/-- At the ideal values the kernel's result array ends at `Logits.views` of the region's input array — the padded
    embeddings of the launched arguments — and the reference's at `Logits.views` of its own padded embeddings of
    arguments that agree: one function. -/
theorem algebraic : Cert.algebraic_KernelIdeal_ReferenceIdeal := by
  intro m ρ m' ρ' _ hagree
  refine ⟨fun c => Cert.Logits.views (Cert.KernelIdeal.Gen.V m c Cert.KernelIdeal.main_v27), Cert.KernelIdeal.Blocks.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2]
  show Cert.Logits.views _ = Cert.Logits.views (Cert.KernelIdeal.Gen.V m c Cert.KernelIdeal.main_v27)
  rw [Cert.KernelIdeal.Hand.V_input]
  exact congrArg Cert.Logits.views (padded_agree _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
